-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x64 : Shape := ⟨4, ![64, 256, 64, 64]⟩
abbrev S16x256 : Shape := ⟨2, ![16, 256]⟩
abbrev S256x16 : Shape := ⟨2, ![256, 16]⟩
abbrev S_ : Shape := ⟨0, ![]⟩

class Facts : Prop where
  bcast_S_S64x256x64x64 : S_.BroadcastsInDim S64x256x64x64 (![] : Fin 0 → Fin S64x256x64x64.rank)
  reducesTo_S64x256x64x64_S_d0_1_2_3 : S64x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S64x256x64x64 .f32) (main_arg1 : FVec F S16x256 .f32) (main_arg2 : FVec F S256x16 .f32) : IVec S_ 1 :=
  let main_v0 : FVec F S64x256x64x64 .f32 := Host.absf main_arg0
  let main_cst : FVec F S_ .f32 := constant S_ .f32 0x7F800000#32
  let main_v1 : FVec F S64x256x64x64 .f32 := broadcastInDim S64x256x64x64 ![] bcast_S_S64x256x64x64 main_cst
  let main_v2 : IVec S64x256x64x64 1 := cmpf .olt main_v0 main_v1
  let main_c : IVec S_ 1 := constantI S_ 1 1#1
  let main_v3 : IVec S_ 1 := (fun x v => Host.reduce IntOp.andi x v reducesTo_S64x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S64x256x64x64 : Shape := ⟨4, ![64, 256, 64, 64]⟩
abbrev S16x256 : Shape := ⟨2, ![16, 256]⟩
abbrev S256x16 : Shape := ⟨2, ![256, 16]⟩
abbrev S64x256x4096 : Shape := ⟨3, ![64, 256, 4096]⟩
abbrev S1x256x4096 : Shape := ⟨3, ![1, 256, 4096]⟩
abbrev S256x4096 : Shape := ⟨2, ![256, 4096]⟩
abbrev S4096x1 : Shape := ⟨2, ![4096, 1]⟩
abbrev S256x1 : Shape := ⟨2, ![256, 1]⟩
abbrev S256 : Shape := ⟨1, ![256]⟩
abbrev S256x2 : Shape := ⟨2, ![256, 2]⟩
abbrev S16x2 : Shape := ⟨2, ![16, 2]⟩

abbrev nBuf : Space → Nat
  | .hbm => 6
  | .vmem => 6
  | .smem => 0
  | _ => 0

abbrev bufTy : (tb : Table) → Fin (tcTables nBuf tb) → BufTy
  | .hbm, ⟨0, _⟩ => ⟨S64x256x64x64, .f32⟩
  | .hbm, ⟨1, _⟩ => ⟨S16x256, .f32⟩
  | .hbm, ⟨2, _⟩ => ⟨S256x16, .f32⟩
  | .hbm, ⟨3, _⟩ => ⟨S64x256x4096, .f32⟩
  | .hbm, ⟨4, _⟩ => ⟨S64x256x4096, .f32⟩
  | .hbm, ⟨5, _⟩ => ⟨S64x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S16x256, .f32⟩
  | .local _ .vmem, ⟨3, _⟩ => ⟨S256x16, .f32⟩
  | .local _ .vmem, ⟨4, _⟩ => ⟨S1x256x4096, .f32⟩
  | .local _ .vmem, ⟨5, _⟩ => ⟨S1x256x4096, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x64x64_S64x256x4096 : S64x256x64x64.ShapeCasts S64x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  concatenates_S256x1_S256x1_S256x2_d1 : Shape.Concatenates [S256x1, S256x1] S256x2 1
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  slices_S256x2_o0_0_S256x1 : S256x2.Slices ![0, 0] S256x1
  slices_S256x2_o0_1_S256x1 : S256x2.Slices ![0, 1] S256x1
  broadcasts_S256x1_S256x4096 : S256x1.Broadcasts S256x4096
  shapeCasts_S256x4096_S1x256x4096 : S256x4096.ShapeCasts S1x256x4096
  shapeCasts_S64x256x4096_S64x256x64x64 : S64x256x4096.ShapeCasts S64x256x64x64
  dot_S256x4096_S4096x1_S256x1_1_0_0_1_n_n_wf : DotDims.WF S256x4096 S4096x1 S256x1 [1] [0] [0] [1] [] []
  dot_S16x256_S256x2_S16x2_1_0_0_1_n_n_wf : DotDims.WF S16x256 S256x2 S16x2 [1] [0] [0] [1] [] []
  dot_S256x16_S16x2_S256x2_1_0_0_1_n_n_wf : DotDims.WF S256x16 S16x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S64x256x4096.size a
  hwx0_0 : ∀ i : grid0.Coords, EltTy.bits .f32 = 32 ∨ (Rect.block (s := S64x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S64x256x4096.size a
  hwx0_3 : ∀ i : grid0.Coords, EltTy.bits .f32 = 32 ∨ (Rect.block (s := S64x256x4096) S1x256x4096.size (cc0_transform_3 i) (hinb0_3 i)).WholeWords (EltTy.packing .f32)

variable [Facts₀]

def dot_S256x4096_S4096x1_S256x1_1_0_0_1_n_n : DotDims S256x4096 S4096x1 S256x1 where
  lhsContracting := [1]
  rhsContracting := [0]
  lhsNonContracting := [0]
  rhsNonContracting := [1]
  lhsBatch := []
  rhsBatch := []
  wf := dot_S256x4096_S4096x1_S256x1_1_0_0_1_n_n_wf
def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf
def dot_S256x16_S16x2_S256x2_1_0_0_1_n_n : DotDims S256x16 S16x2 S256x2 where
  lhsContracting := [1]
  rhsContracting := [0]
  lhsNonContracting := [0]
  rhsNonContracting := [1]
  lhsBatch := []
  rhsBatch := []
  wf := dot_S256x16_S16x2_S256x2_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x64x64 : Shape := ⟨4, ![64, 256, 64, 64]⟩
abbrev S16x256 : Shape := ⟨2, ![16, 256]⟩
abbrev S256x16 : Shape := ⟨2, ![256, 16]⟩
abbrev S64x256x4096 : Shape := ⟨3, ![64, 256, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩
abbrev S256x2 : Shape := ⟨2, ![256, 2]⟩
abbrev S16x2 : Shape := ⟨2, ![16, 2]⟩

abbrev nBuf : Space → Nat
  | .hbm => 6
  | .vmem => 6
  | .smem => 0
  | _ => 0

abbrev bufTy : (tb : Table) → Fin (tcTables nBuf tb) → BufTy
  | .hbm, ⟨0, _⟩ => ⟨S64x256x64x64, .f32⟩
  | .hbm, ⟨1, _⟩ => ⟨S16x256, .f32⟩
  | .hbm, ⟨2, _⟩ => ⟨S256x16, .f32⟩
  | .hbm, ⟨3, _⟩ => ⟨S64x256x4096, .f32⟩
  | .hbm, ⟨4, _⟩ => ⟨S64x256x4096, .f32⟩
  | .hbm, ⟨5, _⟩ => ⟨S64x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S16x256, .f32⟩
  | .local _ .vmem, ⟨3, _⟩ => ⟨S256x16, .f32⟩
  | .local _ .vmem, ⟨4, _⟩ => ⟨S1x256x4096, .f32⟩
  | .local _ .vmem, ⟨5, _⟩ => ⟨S1x256x4096, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x64x64_S64x256x4096 : S64x256x64x64.ShapeCasts S64x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  concatenates_S256x1_S256x1_S256x2_d1 : Shape.Concatenates [S256x1, S256x1] S256x2 1
  slices_S256x2_o0_0_S256x1 : S256x2.Slices ![0, 0] S256x1
  slices_S256x2_o0_1_S256x1 : S256x2.Slices ![0, 1] S256x1
  broadcasts_S256x1_S256x4096 : S256x1.Broadcasts S256x4096
  shapeCasts_S256x4096_S1x256x4096 : S256x4096.ShapeCasts S1x256x4096
  shapeCasts_S64x256x4096_S64x256x64x64 : S64x256x4096.ShapeCasts S64x256x64x64
  dot_S16x256_S256x2_S16x2_1_0_0_1_n_n_wf : DotDims.WF S16x256 S256x2 S16x2 [1] [0] [0] [1] [] []
  dot_S256x16_S16x2_S256x2_1_0_0_1_n_n_wf : DotDims.WF S256x16 S16x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S64x256x4096.size a
  hwx0_0 : ∀ i : grid0.Coords, EltTy.bits .f32 = 32 ∨ (Rect.block (s := S64x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S64x256x4096.size a
  hwx0_3 : ∀ i : grid0.Coords, EltTy.bits .f32 = 32 ∨ (Rect.block (s := S64x256x4096) S1x256x4096.size (cc0_transform_3 i) (hinb0_3 i)).WholeWords (EltTy.packing .f32)

variable [Facts₀]

def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf
def dot_S256x16_S16x2_S256x2_1_0_0_1_n_n : DotDims S256x16 S16x2 S256x2 where
  lhsContracting := [1]
  rhsContracting := [0]
  lhsNonContracting := [0]
  rhsNonContracting := [1]
  lhsBatch := []
  rhsBatch := []
  wf := dot_S256x16_S16x2_S256x2_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibColumnForms.lean ====
import Idealize.ShloMosaic.Lib.ValueLayout

/-!
# Column forms read at an index

A vector kept as a one-column matrix (a sum with `keepdims`): the cast of a vector `[a]` to a column `[a, 1]`, and a
column `[a, 1]` repeated across the columns of `[a, b]`, each read at an index given by coordinates.
-/

namespace Idealize.ShloMosaic.ColumnForms

open Idealize.ShloMosaic Idealize.ShloMosaic.ValueIdx

variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated across the columns of `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.LibRowSum.lean ====
import Idealize.ShloMosaic.Lib.ValueIdx
import Idealize.ShloMosaic.Lib.IdealHost
import Idealize.ShloMosaic.PureOps.Ideal.Laws
import proofs.«168161_g2000409515180779_pallasbulk_1288_2_alg».proof.Proof.LibPlainMatmul
import proofs.«168161_g2000409515180779_pallasbulk_1288_2_alg».proof.Proof.LibColumnForms

/-!
# A row sum, two ways

For a matrix `x` of shape `[R, K]` over the extended reals, the product of `x` with a column of `K` ones, taken into
a zero accumulator, is the column of row sums: at `(p, 0)` it is `∑ k, x[p, k] · 1 = ∑ k, x[p, k]`. The sum of `x`
along its second axis, kept as a column `[R, 1]`, is the same column. Only `a · 1 = a` is used, which holds for
every extended real, so nothing is asked of the entries of `x`.
-/

noncomputable section

open scoped BigOperators

namespace Idealize.ShloMosaic.RowSum

open Idealize.ShloMosaic Idealize.ShloMosaic.ValueIdx

/-- The index a reduction along axis 1 of `[R, K]` inserts for the row `p` and the lane `k` is `(p, k)`. -/
theorem lift_row {R K : Nat} (h : Shape.Reduces ⟨2, ![R, K]⟩ [1] ⟨1, ![R]⟩) (p : Fin R) (k : Fin K) :
    h.lift (ix1 p) k = ix2 p k := by
  funext a
  apply Fin.ext
  match a with
  | ⟨0, _⟩ => rfl
  | ⟨1, _⟩ => rfl

/-- `x · 𝟙` into the zero accumulator is the column of the row sums of `x`. -/
theorem matmul_ones_eq_rowsum {R K : Nat}
    (d : DotDims ⟨2, ![R, K]⟩ ⟨2, ![K, 1]⟩ ⟨2, ![R, 1]⟩)
    (hlc : d.lhsContracting = [1]) (hrc : d.rhsContracting = [0]) (hln : d.lhsNonContracting = [0])
    (hrn : d.rhsNonContracting = [1]) (hlb : d.lhsBatch = []) (hrb : d.rhsBatch = [])
    (hred : Shape.Reduces ⟨2, ![R, K]⟩ [1] ⟨1, ![R]⟩) (hφ : FKind.Formats .f32)
    (hacc : (0x00000000#32 : BitVec 32) = FKind.add.neutral .f32 hφ)
    (hcol : (⟨1, ![R]⟩ : Shape).ShapeCasts ⟨2, ![R, 1]⟩)
    (x : FVec Ideal ⟨2, ![R, K]⟩ .f32) :
    matmul d none x (broadcast ⟨2, ![K, 1]⟩ (Scalar.ofBits (F := Ideal) .f32 0x3F800000#32))
        (constant ⟨2, ![R, 1]⟩ .f32 0x00000000#32)
      = shapeCast ⟨2, ![R, 1]⟩ (multiReduction .add [1] ⟨1, ![R]⟩ x 0x00000000#32 hred hφ hacc) hcol := by
  funext j
  obtain ⟨p, q, rfl⟩ : ∃ (p : Fin R) (q : Fin 1), j = ix2 p q := ⟨j 0, j 1, eq_ix2 j⟩
  rw [ColumnForms.shapeCast_a_a1_apply, Ideal.multiReduction_add_single]
  refine (PlainMatmul.matmul_plain_apply d hlc hrc hln hrn hlb hrb none x _ p q).trans ?_
  refine Finset.sum_congr rfl fun k _ => ?_
  rw [lift_row hred p k]
  show x (ix2 p k) * Ideal.ofBits .f32 0x3F800000#32 = x (ix2 p k)
  rw [Ideal.ofBits_one_f32, mul_one]

end Idealize.ShloMosaic.RowSum

end
-- ==== Proof.PayloadEq.lean ====
import proofs.«168161_g2000409515180779_pallasbulk_1288_2_alg».proof.Proof.Gen.KernelIdeal.Skeleton
import proofs.«168161_g2000409515180779_pallasbulk_1288_2_alg».proof.Proof.Gen.ReferenceIdeal.Skeleton
import proofs.«168161_g2000409515180779_pallasbulk_1288_2_alg».proof.Proof.LibRowSum

/-!
# The two bodies compute one function of their blocks

Both bodies take a sample `x : [1, C, HW]` and the two weight matrices, pool `x` over its lanes to a mean and a
maximum per channel, push the two pooled columns through the same two-layer perceptron, add the two outputs, apply the
logistic function and scale `x` by the result, channel by channel. They differ in one place only: the first takes the
sum over the lanes as a product `x · 𝟙` with a column of ones, the second as a lane reduction. Over the extended
reals these are the same column (`RowSum.matmul_ones_eq_rowsum`), and both are then scaled by the same `2⁻¹²`.
-/

noncomputable section

namespace Cert.Bridge

open Idealize.ShloMosaic

/-- The value the first body stores is the value the second body stores, for any sample and any weights. -/
theorem payload_eq (x : Vec Ideal ⟨3, ![1, 256, 4096]⟩ .f32) (w1 : Vec Ideal ⟨2, ![16, 256]⟩ .f32)
    (w2 : Vec Ideal ⟨2, ![256, 16]⟩ .f32) :
    Cert.KernelIdeal.Gen.k0_pay1 (F := Ideal) x w1 w2 = Cert.ReferenceIdeal.Gen.k0_pay1 (F := Ideal) x w1 w2 := by
  unfold Cert.KernelIdeal.Gen.k0_pay1 Cert.ReferenceIdeal.Gen.k0_pay1
  dsimp only
  rw [RowSum.matmul_ones_eq_rowsum (R := 256) (K := 4096)
    Cert.KernelIdeal.dot_S256x4096_S4096x1_S256x1_1_0_0_1_n_n rfl rfl rfl rfl rfl rfl
    Cert.KernelIdeal.Facts₀.reduces_S256x4096_S256 (.inl rfl) rfl Cert.KernelIdeal.Facts₀.shapeCasts_S256_S256x1]
  rfl

end Cert.Bridge

end
-- ==== Proof.PerSample.lean ====
import Idealize.ShloMosaic.Lib.ValueIdx

/-!
# A function of one sample, applied to every sample of a batch

A batch `x : [64, 256, 4096]` is 64 samples `[256, 4096]`, and a block of one sample carries a leading unit axis:
`[1, 256, 4096]`. `sample x n` is sample `n` as such a block, and `each B x` applies a function `B` of one block to
every sample: entry `(n, c, k)` of the result is entry `(0, c, k)` of `B (sample x n)`. `result` wraps this between the
two changes of shape `[64, 256, 64, 64] → [64, 256, 4096] → [64, 256, 64, 64]` the programs make around it.
-/

noncomputable section

namespace Cert.PerSample

open Idealize.ShloMosaic Idealize.ShloMosaic.ValueIdx

variable {α : Type}

/-- The batch as the programs take it: `[64, 256, 64, 64]`. -/
abbrev Images : Shape := ⟨4, ![64, 256, 64, 64]⟩
/-- The batch with each image's two axes flattened: `[64, 256, 4096]`. -/
abbrev Batch : Shape := ⟨3, ![64, 256, 4096]⟩
/-- One sample as a block: `[1, 256, 4096]`. -/
abbrev One : Shape := ⟨3, ![1, 256, 4096]⟩

/-- The index `(n, c, k)` of the batch. -/
abbrev at3 (n : Fin 64) (c : Fin 256) (k : Fin 4096) : Batch.Idx := ix3 n c k
/-- The index `(0, c, k)` of a one-sample block. -/
abbrev at1 (c : Fin 256) (k : Fin 4096) : One.Idx := ix3 (0 : Fin 1) c k

/-- Sample `n` of the batch, as a block with a leading unit axis. -/
def sample (x : Batch.Idx → α) (n : Fin 64) : One.Idx → α := fun y => x (at3 n (y 1) (y 2))

/-- `B` applied to every sample: the result at `(n, c, k)` is `B (sample x n)` at `(0, c, k)`. -/
def each (B : (One.Idx → α) → (One.Idx → α)) (x : Batch.Idx → α) : Batch.Idx → α :=
  fun i => B (sample x (i 0)) (at1 (i 1) (i 2))

theorem each_apply (B : (One.Idx → α) → (One.Idx → α)) (x : Batch.Idx → α) (n : Fin 64) (p : Fin 256) (q : Fin 4096) :
    each B x (at3 n p q) = B (sample x n) (at1 p q) := rfl

/-- An index of a one-sample block has `0` on its unit axis. -/
theorem one_idx (y : One.Idx) : at1 (y 1) (y 2) = y := by
  funext a
  match a with
  | ⟨0, _⟩ => exact (Subsingleton.elim (α := Fin 1) _ _)
  | ⟨1, _⟩ => rfl
  | ⟨2, _⟩ => rfl

/-- The whole program around a per-sample function `B` of a block and two weight matrices: flatten the images,
    apply `B` (at the given weights) to every sample, and give the images their two axes back. -/
def result (h₁ : Images.ShapeCasts Batch) (h₂ : Batch.ShapeCasts Images) {β γ : Type}
    (B : (One.Idx → α) → β → γ → (One.Idx → α)) (a0 : Images.Idx → α) (a1 : β) (a2 : γ) : Images.Idx → α :=
  shapeCast Images (each (fun xb => B xb a1 a2) (shapeCast Batch a0 h₁)) h₂

end Cert.PerSample

end
-- ==== Proof.KernelWhole.lean ====
import proofs.«168161_g2000409515180779_pallasbulk_1288_2_alg».proof.Proof.Gen.KernelIdeal.Frame
import proofs.«168161_g2000409515180779_pallasbulk_1288_2_alg».proof.Proof.PerSample
import Idealize.ShloMosaic.Lib.Pipeline.Value
import Idealize.ShloMosaic.Lib.ValueIdx
import Idealize.ShloMosaic.Lib.StableHlo.Run

/-!
# What the program returns, as one function of its three arguments

The program flattens each image of the batch `[64, 256, 64, 64]` to `[64, 256, 4096]`, runs its body once per sample
`n` on the block `[1, 256, 4096]` of that sample and on the two whole weight matrices, writes the body's result back
as block `n` of the output, and gives the images their two axes back. So the output is the body's stored value,
as a function of one sample and the weights, applied to every sample: `PerSample.result` of that function.

The steps: the block of the input at sample `n` is `sample … n`, and the weights' blocks are the whole matrices
(the index maps, decided once over the 64 grid points); what point `n` writes back is block `n` of
`PerSample.each` of the body's value; the 64 blocks cover the output; and the two changes of shape before and after
are read off the program's host lines.
-/

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.PerSample

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the 64 grid points: the sample's block and the output's block at point `t` are block `t`
    along the batch axis and the only block along the other two; each weight matrix is its one block. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a sample number. -/
def sampleOf (t : Fin cfg0.N) : Fin 64 := ⟨t.val, by have := t.isLt; have h : cfg0.N = 64 := N_0; omega⟩

/-- Where an element of the sample's block at point `t` sits in the batch. -/
theorem emb_in (t : Fin cfg0.N) (y : One.Idx) :
    ((cfg0.win 0).blk t).view.emb y = at3 (sampleOf t) (y 1) (y 2) := by
  obtain ⟨e0, e1, e2, -⟩ := index_facts t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 256 + 1 * (y 1).val = (y 1).val; omega
  | ⟨2, _⟩ => show win0_0.index t (2 : Fin 3) * 4096 + 1 * (y 2).val = (y 2).val; omega

/-- Where an element of the output's block at point `t` sits in the output. -/
theorem emb_out (t : Fin cfg0.N) (y : One.Idx) :
    ((cfg0.win 3).blk t).view.emb y = at3 (sampleOf t) (y 1) (y 2) := by
  obtain ⟨-, -, -, -, -, -, -, e0, e1, e2⟩ := index_facts t
  funext a; apply Fin.ext
  match a with
  | ⟨0, _⟩ => show win0_3.index t (0 : Fin 3) * 1 + 1 * (y 0).val = t.val; have hy : (y 0).val < 1 := (y 0).isLt; omega
  | ⟨1, _⟩ => show win0_3.index t (1 : Fin 3) * 256 + 1 * (y 1).val = (y 1).val; omega
  | ⟨2, _⟩ => show win0_3.index t (2 : Fin 3) * 4096 + 1 * (y 2).val = (y 2).val; omega

/-- The block of the flattened batch at point `t` is sample `t`. -/
theorem block_sample (c : Dev nD) (t : Fin cfg0.N) : iblk m c 0 t = sample (V m c main_v0) (sampleOf t) := by
  funext y
  show V m c main_v0 (((cfg0.win 0).blk t).view.emb y) = V m c main_v0 (at3 (sampleOf t) (y 1) (y 2))
  exact congrArg (V m c main_v0) (emb_in t y)

/-- The block of the first weight matrix at any point is the whole matrix. -/
theorem block_w1 (c : Dev nD) (t : Fin cfg0.N) : iblk m c 1 t = V m c main_arg1 := by
  obtain ⟨-, -, -, e0, e1, -⟩ := index_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 16 + 1 * (y 0).val = (y 0).val; omega
  | ⟨1, _⟩ => show win0_1.index t (1 : Fin 2) * 256 + 1 * (y 1).val = (y 1).val; omega

/-- The block of the second weight matrix at any point is the whole matrix. -/
theorem block_w2 (c : Dev nD) (t : Fin cfg0.N) : iblk m c 2 t = V m c main_arg2 := by
  obtain ⟨-, -, -, -, -, e0, e1, -⟩ := index_facts t
  funext y
  show V m c main_arg2 (((cfg0.win 2).blk t).view.emb y) = V m c main_arg2 y
  refine congrArg (V m c main_arg2) ?_
  funext a; apply Fin.ext
  match a with
  | ⟨0, _⟩ => show win0_2.index t (0 : Fin 2) * 256 + 1 * (y 0).val = (y 0).val; omega
  | ⟨1, _⟩ => show win0_2.index t (1 : Fin 2) * 16 + 1 * (y 1).val = (y 1).val; omega

/-- The output before its images get their axes back: the body's stored value applied to every sample. -/
abbrev flat (c : Dev nD) : Batch.Idx → Elt F .f32 :=
  each (fun xb => k0_pay1 xb (V m c main_arg1) (V m c main_arg2)) (V m c main_v0)

/-- What point `t` writes back is block `t` of `flat`. -/
theorem flushed_eq (c : Dev nD) (t : Fin cfg0.N) :
    (dats m 0 c).flushed 3 t = ((cfg0.win 3).blk t).view.read (Elt F) (flat m c) := by
  show (cfg0.win 3).cut (grid0.coords t) ((dats m 0 c).after 3 t) = _
  rw [after0_3]
  unfold out0_3
  rw [View.canon_unit_zero zeros3]
  simp only [View.ld_unit_zero (S := S1x256x4096) zeros3, View.ld_unit_zero (S := S16x256) zeros2,
    View.ld_unit_zero (S := S256x16) zeros2]
  rw [block_sample m c t, block_w1 m c t, block_w2 m c t]
  funext y
  show k0_pay1 (sample (V m c main_v0) (sampleOf t)) (V m c main_arg1) (V m c main_arg2) y
    = flat m c (((cfg0.win 3).blk t).view.emb y)
  rw [emb_out t y]
  exact (congrArg (k0_pay1 (sample (V m c main_v0) (sampleOf t)) (V m c main_arg1) (V m c main_arg2)) (one_idx y)).symm

/-- An index of the output is in point `t`'s block iff each coordinate is in the block's range on its axis. -/
theorem mem_blk (t : Fin cfg0.N) (i : S64x256x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v1).slice (win0_3.rect t)).set ↔ _
  rw [View.set_slice_whole, Rect.mem_set_unit]
  exact Iff.rfl

/-- Every index of the output is in the block of the point of its sample. -/
theorem cover (i : S64x256x4096.Idx) :
    ∃ t : Fin cfg0.N, (cfg0.win 3).flush t = true ∧ i ∈ ((cfg0.win 3).blk t).view.set := by
  have hN : cfg0.N = 64 := N_0
  have h0 : (i 0).val < 64 := (i 0).isLt
  have h1 : (i 1).val < 256 := (i 1).isLt
  have h2 : (i 2).val < 4096 := (i 2).isLt
  refine ⟨⟨(i 0).val, by omega⟩, flush0_3 _, ?_⟩
  obtain ⟨-, -, -, -, -, -, -, e0, e1, e2⟩ := index_facts ⟨(i 0).val, by omega⟩
  rw [mem_blk]
  intro a
  match a with
  | ⟨0, _⟩ =>
    show win0_3.index _ (0 : Fin 3) * 1 ≤ (i 0).val ∧ (i 0).val < win0_3.index _ (0 : Fin 3) * 1 + 1
    rw [e0]; show (i 0).val * 1 ≤ (i 0).val ∧ (i 0).val < (i 0).val * 1 + 1; omega
  | ⟨1, _⟩ =>
    show win0_3.index _ (1 : Fin 3) * 256 ≤ (i 1).val ∧ (i 1).val < win0_3.index _ (1 : Fin 3) * 256 + 256
    rw [e1]; omega
  | ⟨2, _⟩ =>
    show win0_3.index _ (2 : Fin 3) * 4096 ≤ (i 2).val ∧ (i 2).val < win0_3.index _ (2 : Fin 3) * 4096 + 4096
    rw [e2]; omega

/-- The output array after the region is `flat`. -/
theorem final (c : Dev nD) : (dats m 0 c).arrAt 3 cfg0.N = flat m c :=
  (dats m 0 c).arrAt_eq_of_cover 3 (flat m c) (fun t _ => flushed_eq m c t) cover

/-- The flattened batch the region finds is the first argument with each image's two axes merged. -/
theorem entry_flat (c : Dev nD) :
    (V m c main_v0 : S64x256x4096.Idx → Elt F .f32)
      = shapeCast S64x256x4096 (m ((c : Thread nD τ).loc main_arg0)) Facts₀.shapeCasts_S64x256x64x64_S64x256x4096 := by
  show StableHlo.after hostOps0 (fun b => m (c, b)) (Proc.devRef .tc main_v0) = _
  after_results
  rfl

/-- The program's result after the host line that follows the region: `flat` with the images' axes restored. -/
theorem tail_eq (c : Dev nD) :
    (Pipeline.afterTail₀ cfgs (dats m) 0 (V0 m) [hostOps1] c main_v2 : S64x256x64x64.Idx → Elt F .f32)
      = shapeCast S64x256x64x64 (flat m c) Facts₀.shapeCasts_S64x256x4096_S64x256x64x64 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = flat m c := (Pipeline.withArrays_arr spec0 launch0.win.arr_inj c _ _ 3).trans (final m c)
  rw [e]
  rfl

/-- THE RUN, READ: every weakly fair execution terminates with the result at `PerSample.result` of the body's
    stored value and the three arguments, and the arguments unchanged. -/
theorem run : θ_run defs (onTc (τ := τ) (main (F := F))) ⟨m, fun _ => 0, ρ⟩ fun r => ∀ c : Dev nD,
      r.2.mem ((c : Thread nD τ).loc main_v2)
        = result Facts₀.shapeCasts_S64x256x64x64_S64x256x4096 Facts₀.shapeCasts_S64x256x4096_S64x256x64x64
            (k0_pay1 (F := F)) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).2 main_v2 (Pipeline.mem_restRefs_of main_v2 (by decide) (by decide)), tail_eq m c]
      unfold result flat
      rw [entry_flat m c, V_main_arg1 m c, V_main_arg2 m c],
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩)
    (run_main m ρ)

end Cert.KernelIdeal.Whole

end
-- ==== Proof.ReferenceWhole.lean ====
import proofs.«168161_g2000409515180779_pallasbulk_1288_2_alg».proof.Proof.Gen.ReferenceIdeal.Frame
import proofs.«168161_g2000409515180779_pallasbulk_1288_2_alg».proof.Proof.PerSample
import Idealize.ShloMosaic.Lib.Pipeline.Value
import Idealize.ShloMosaic.Lib.ValueIdx
import Idealize.ShloMosaic.Lib.StableHlo.Run

/-!
# What the program returns, as one function of its three arguments

The program flattens each image of the batch `[64, 256, 64, 64]` to `[64, 256, 4096]`, runs its body once per sample
`n` on the block `[1, 256, 4096]` of that sample and on the two whole weight matrices, writes the body's result back
as block `n` of the output, and gives the images their two axes back. So the output is the body's stored value,
as a function of one sample and the weights, applied to every sample: `PerSample.result` of that function.

The steps: the block of the input at sample `n` is `sample … n`, and the weights' blocks are the whole matrices
(the index maps, decided once over the 64 grid points); what point `n` writes back is block `n` of
`PerSample.each` of the body's value; the 64 blocks cover the output; and the two changes of shape before and after
are read off the program's host lines.
-/

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)
open Idealize.ShloMosaic.ValueIdx Cert.PerSample

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the 64 grid points: the sample's block and the output's block at point `t` are block `t`
    along the batch axis and the only block along the other two; each weight matrix is its one block. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a sample number. -/
def sampleOf (t : Fin cfg0.N) : Fin 64 := ⟨t.val, by have := t.isLt; have h : cfg0.N = 64 := N_0; omega⟩

/-- Where an element of the sample's block at point `t` sits in the batch. -/
theorem emb_in (t : Fin cfg0.N) (y : One.Idx) :
    ((cfg0.win 0).blk t).view.emb y = at3 (sampleOf t) (y 1) (y 2) := by
  obtain ⟨e0, e1, e2, -⟩ := index_facts t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 256 + 1 * (y 1).val = (y 1).val; omega
  | ⟨2, _⟩ => show win0_0.index t (2 : Fin 3) * 4096 + 1 * (y 2).val = (y 2).val; omega

/-- Where an element of the output's block at point `t` sits in the output. -/
theorem emb_out (t : Fin cfg0.N) (y : One.Idx) :
    ((cfg0.win 3).blk t).view.emb y = at3 (sampleOf t) (y 1) (y 2) := by
  obtain ⟨-, -, -, -, -, -, -, e0, e1, e2⟩ := index_facts t
  funext a; apply Fin.ext
  match a with
  | ⟨0, _⟩ => show win0_3.index t (0 : Fin 3) * 1 + 1 * (y 0).val = t.val; have hy : (y 0).val < 1 := (y 0).isLt; omega
  | ⟨1, _⟩ => show win0_3.index t (1 : Fin 3) * 256 + 1 * (y 1).val = (y 1).val; omega
  | ⟨2, _⟩ => show win0_3.index t (2 : Fin 3) * 4096 + 1 * (y 2).val = (y 2).val; omega

/-- The block of the flattened batch at point `t` is sample `t`. -/
theorem block_sample (c : Dev nD) (t : Fin cfg0.N) : iblk m c 0 t = sample (V m c main_v0) (sampleOf t) := by
  funext y
  show V m c main_v0 (((cfg0.win 0).blk t).view.emb y) = V m c main_v0 (at3 (sampleOf t) (y 1) (y 2))
  exact congrArg (V m c main_v0) (emb_in t y)

/-- The block of the first weight matrix at any point is the whole matrix. -/
theorem block_w1 (c : Dev nD) (t : Fin cfg0.N) : iblk m c 1 t = V m c main_arg1 := by
  obtain ⟨-, -, -, e0, e1, -⟩ := index_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 16 + 1 * (y 0).val = (y 0).val; omega
  | ⟨1, _⟩ => show win0_1.index t (1 : Fin 2) * 256 + 1 * (y 1).val = (y 1).val; omega

/-- The block of the second weight matrix at any point is the whole matrix. -/
theorem block_w2 (c : Dev nD) (t : Fin cfg0.N) : iblk m c 2 t = V m c main_arg2 := by
  obtain ⟨-, -, -, -, -, e0, e1, -⟩ := index_facts t
  funext y
  show V m c main_arg2 (((cfg0.win 2).blk t).view.emb y) = V m c main_arg2 y
  refine congrArg (V m c main_arg2) ?_
  funext a; apply Fin.ext
  match a with
  | ⟨0, _⟩ => show win0_2.index t (0 : Fin 2) * 256 + 1 * (y 0).val = (y 0).val; omega
  | ⟨1, _⟩ => show win0_2.index t (1 : Fin 2) * 16 + 1 * (y 1).val = (y 1).val; omega

/-- The output before its images get their axes back: the body's stored value applied to every sample. -/
abbrev flat (c : Dev nD) : Batch.Idx → Elt F .f32 :=
  each (fun xb => k0_pay1 xb (V m c main_arg1) (V m c main_arg2)) (V m c main_v0)

/-- What point `t` writes back is block `t` of `flat`. -/
theorem flushed_eq (c : Dev nD) (t : Fin cfg0.N) :
    (dats m 0 c).flushed 3 t = ((cfg0.win 3).blk t).view.read (Elt F) (flat m c) := by
  show (cfg0.win 3).cut (grid0.coords t) ((dats m 0 c).after 3 t) = _
  rw [after0_3]
  unfold out0_3
  rw [View.canon_unit_zero zeros3]
  simp only [View.ld_unit_zero (S := S1x256x4096) zeros3, View.ld_unit_zero (S := S16x256) zeros2,
    View.ld_unit_zero (S := S256x16) zeros2]
  rw [block_sample m c t, block_w1 m c t, block_w2 m c t]
  funext y
  show k0_pay1 (sample (V m c main_v0) (sampleOf t)) (V m c main_arg1) (V m c main_arg2) y
    = flat m c (((cfg0.win 3).blk t).view.emb y)
  rw [emb_out t y]
  exact (congrArg (k0_pay1 (sample (V m c main_v0) (sampleOf t)) (V m c main_arg1) (V m c main_arg2)) (one_idx y)).symm

/-- An index of the output is in point `t`'s block iff each coordinate is in the block's range on its axis. -/
theorem mem_blk (t : Fin cfg0.N) (i : S64x256x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v1).slice (win0_3.rect t)).set ↔ _
  rw [View.set_slice_whole, Rect.mem_set_unit]
  exact Iff.rfl

/-- Every index of the output is in the block of the point of its sample. -/
theorem cover (i : S64x256x4096.Idx) :
    ∃ t : Fin cfg0.N, (cfg0.win 3).flush t = true ∧ i ∈ ((cfg0.win 3).blk t).view.set := by
  have hN : cfg0.N = 64 := N_0
  have h0 : (i 0).val < 64 := (i 0).isLt
  have h1 : (i 1).val < 256 := (i 1).isLt
  have h2 : (i 2).val < 4096 := (i 2).isLt
  refine ⟨⟨(i 0).val, by omega⟩, flush0_3 _, ?_⟩
  obtain ⟨-, -, -, -, -, -, -, e0, e1, e2⟩ := index_facts ⟨(i 0).val, by omega⟩
  rw [mem_blk]
  intro a
  match a with
  | ⟨0, _⟩ =>
    show win0_3.index _ (0 : Fin 3) * 1 ≤ (i 0).val ∧ (i 0).val < win0_3.index _ (0 : Fin 3) * 1 + 1
    rw [e0]; show (i 0).val * 1 ≤ (i 0).val ∧ (i 0).val < (i 0).val * 1 + 1; omega
  | ⟨1, _⟩ =>
    show win0_3.index _ (1 : Fin 3) * 256 ≤ (i 1).val ∧ (i 1).val < win0_3.index _ (1 : Fin 3) * 256 + 256
    rw [e1]; omega
  | ⟨2, _⟩ =>
    show win0_3.index _ (2 : Fin 3) * 4096 ≤ (i 2).val ∧ (i 2).val < win0_3.index _ (2 : Fin 3) * 4096 + 4096
    rw [e2]; omega

/-- The output array after the region is `flat`. -/
theorem final (c : Dev nD) : (dats m 0 c).arrAt 3 cfg0.N = flat m c :=
  (dats m 0 c).arrAt_eq_of_cover 3 (flat m c) (fun t _ => flushed_eq m c t) cover

/-- The flattened batch the region finds is the first argument with each image's two axes merged. -/
theorem entry_flat (c : Dev nD) :
    (V m c main_v0 : S64x256x4096.Idx → Elt F .f32)
      = shapeCast S64x256x4096 (m ((c : Thread nD τ).loc main_arg0)) Facts₀.shapeCasts_S64x256x64x64_S64x256x4096 := by
  show StableHlo.after hostOps0 (fun b => m (c, b)) (Proc.devRef .tc main_v0) = _
  after_results
  rfl

/-- The program's result after the host line that follows the region: `flat` with the images' axes restored. -/
theorem tail_eq (c : Dev nD) :
    (Pipeline.afterTail₀ cfgs (dats m) 0 (V0 m) [hostOps1] c main_v2 : S64x256x64x64.Idx → Elt F .f32)
      = shapeCast S64x256x64x64 (flat m c) Facts₀.shapeCasts_S64x256x4096_S64x256x64x64 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = flat m c := (Pipeline.withArrays_arr spec0 launch0.win.arr_inj c _ _ 3).trans (final m c)
  rw [e]
  rfl

/-- THE RUN, READ: every weakly fair execution terminates with the result at `PerSample.result` of the body's
    stored value and the three arguments, and the arguments unchanged. -/
theorem run : θ_run defs (onTc (τ := τ) (main (F := F))) ⟨m, fun _ => 0, ρ⟩ fun r => ∀ c : Dev nD,
      r.2.mem ((c : Thread nD τ).loc main_v2)
        = result Facts₀.shapeCasts_S64x256x64x64_S64x256x4096 Facts₀.shapeCasts_S64x256x4096_S64x256x64x64
            (k0_pay1 (F := F)) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).2 main_v2 (Pipeline.mem_restRefs_of main_v2 (by decide) (by decide)), tail_eq m c]
      unfold result flat
      rw [entry_flat m c, V_main_arg1 m c, V_main_arg2 m c],
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩)
    (run_main m ρ)

end Cert.ReferenceIdeal.Whole

end
-- ==== Proof.lean ====
import proofs.«168161_g2000409515180779_pallasbulk_1288_2_alg».proof.Defs
import proofs.«168161_g2000409515180779_pallasbulk_1288_2_alg».proof.Proof.Gen.Kernel
import proofs.«168161_g2000409515180779_pallasbulk_1288_2_alg».proof.Proof.Gen.Kernel.Frame
import proofs.«168161_g2000409515180779_pallasbulk_1288_2_alg».proof.Proof.Gen.KernelIdeal
import proofs.«168161_g2000409515180779_pallasbulk_1288_2_alg».proof.Proof.Gen.KernelIdeal.Frame
import proofs.«168161_g2000409515180779_pallasbulk_1288_2_alg».proof.Proof.Gen.ReferenceIdeal
import proofs.«168161_g2000409515180779_pallasbulk_1288_2_alg».proof.Proof.Gen.ReferenceIdeal.Frame
import proofs.«168161_g2000409515180779_pallasbulk_1288_2_alg».proof.Proof.Gen.Pre_finite_inputs
import proofs.«168161_g2000409515180779_pallasbulk_1288_2_alg».proof.Proof.PayloadEq
import proofs.«168161_g2000409515180779_pallasbulk_1288_2_alg».proof.Proof.KernelWhole
import proofs.«168161_g2000409515180779_pallasbulk_1288_2_alg».proof.Proof.ReferenceWhole
import Idealize.ShloMosaic.Adequacy
import Idealize.ShloMosaic.Init

/-!
# Channel attention: the fused kernel against the reference's fused kernel

Both programs scale every channel of every image by a gate in `(0, 1)`: per image, each channel is pooled over its
4096 pixels to a mean and a maximum; the two pooled vectors go through the same two-layer perceptron
(`w1`, a rectifier, `w2`); the two outputs are added and passed through the logistic function.

The programs are the same but for how the pixel sum of the mean is taken: one multiplies the `[256, 4096]` sample by
a column of 4096 ones on the matrix unit, the other sums along the lanes. Over the extended reals
`∑ₖ x[c, k] · 1 = ∑ₖ x[c, k]` term by term (`RowSum`), whatever the entries are, so the values the two bodies store
are one function of the sample and the weights (`PayloadEq`); both sums are then scaled by the same `2⁻¹²`. Each
program returns that function applied to every sample of the batch (`KernelWhole`, `ReferenceWhole` over
`PerSample`), so the results agree element by element. The precondition is not used: no step needs a finite entry.
-/

noncomputable section

namespace Cert.Proof

open Idealize.ShloMosaic Idealize.SL.Sem

/-- Each program runs and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Nothing was rewritten on the way to the idealized kernel. -/
theorem preserves : Cert.preserves_Kernel_KernelIdeal := trivial

/-- The two bodies' stored values are one function of a sample and the weights. -/
theorem body_eq : Cert.ReferenceIdeal.Gen.k0_pay1 (F := Ideal) = Cert.KernelIdeal.Gen.k0_pay1 (F := Ideal) :=
  funext fun x => funext fun w1 => funext fun w2 => (Cert.Bridge.payload_eq x w1 w2).symm

/-- From arguments that agree, both programs end at the same per-sample function applied to every sample. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Whole.run (F := Ideal) m' ρ')
  rw [(hagree c).1, (hagree c).2.1, (hagree c).2.2, body_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
